-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S512x4096 : Shape := ⟨2, ![512, 4096]⟩
abbrev S512x16 : Shape := ⟨2, ![512, 16]⟩
abbrev S1x4096 : Shape := ⟨2, ![1, 4096]⟩
abbrev S1024x4096 : Shape := ⟨2, ![1024, 4096]⟩
abbrev S1x512 : Shape := ⟨2, ![1, 512]⟩
abbrev S1024x512 : Shape := ⟨2, ![1024, 512]⟩

abbrev nBuf : Space → Nat
  | .hbm => 11
  | .vmem => 19
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S1x4096, .f32⟩
  | .hbm, ⟨9, _⟩ => ⟨S16384x4096, .f32⟩
  | .hbm, ⟨10, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x16, .f32⟩
  | .local _ .vmem, ⟨7, _⟩ => ⟨S512x16, .f32⟩
  | .local _ .vmem, ⟨8, _⟩ => ⟨S16x4096, .f32⟩
  | .local _ .vmem, ⟨9, _⟩ => ⟨S512x4096, .bf16⟩
  | .local _ .vmem, ⟨10, _⟩ => ⟨S512x4096, .bf16⟩
  | .local _ .vmem, ⟨11, _⟩ => ⟨S1024x4096, .bf16⟩
  | .local _ .vmem, ⟨12, _⟩ => ⟨S1024x4096, .bf16⟩
  | .local _ .vmem, ⟨13, _⟩ => ⟨S512x4096, .bf16⟩
  | .local _ .vmem, ⟨14, _⟩ => ⟨S512x4096, .bf16⟩
  | .local _ .vmem, ⟨15, _⟩ => ⟨S1x512, .f32⟩
  | .local _ .vmem, ⟨16, _⟩ => ⟨S1x512, .f32⟩
  | .local _ .vmem, ⟨17, _⟩ => ⟨S1024x512, .f32⟩
  | .local _ .vmem, ⟨18, _⟩ => ⟨S1024x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x4096x4096_S16384x4096 : S4x4096x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x16_S512x16_0_0 : ∀ a, (![0, 0] : Fin 2 → Nat) a + S512x16.size a ≤ S512x16.size a
  h_S512x16 : 0 < S512x16.numel
  inb_S16x4096_S16x4096_0_0 : ∀ a, (![0, 0] : Fin 2 → Nat) a + S16x4096.size a ≤ S16x4096.size a
  h_S16x4096 : 0 < S16x4096.numel
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x4096_S4x4096x4096 : S16384x4096.ShapeCasts S4x4096x4096
  dot_S512x16_S16x4096_S512x4096_1_0_0_1_n_n_wf : DotDims.WF S512x16 S16x4096 S512x4096 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S4096x16.size a
  hwx1_1 : ∀ i : grid1.Coords, EltTy.bits .f32 = 32 ∨ (Rect.block (s := S4096x16) S512x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x4096.size a ≤ S16x4096.size a
  hwx1_2 : ∀ i : grid1.Coords, EltTy.bits .f32 = 32 ∨ (Rect.block (s := S16x4096) S16x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .bf16 = 32 ∨ (Rect.block (s := S4096x4096) S512x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x4096.size a
  hwx2_0 : ∀ i : grid2.Coords, EltTy.bits .bf16 = 32 ∨ (Rect.block (s := S16384x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S16384x4096.size a
  hwx2_3 : ∀ i : grid2.Coords, EltTy.bits .f32 = 32 ∨ (Rect.block (s := S16384x4096) S1024x512.size (cc2_transform_3 i) (hinb2_3 i)).WholeWords (EltTy.packing .f32)

variable [Facts₀]

def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S4096x4096, .f32⟩
  | .hbm, ⟨7, _⟩ => ⟨S4x4096x4096, .f32⟩
  | .hbm, ⟨8, _⟩ => ⟨S1x1x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Spec.lean ====
/-
  The function both programs compute, over the extended reals.

  Write `Wm (o, k) = W (o, k) + ∑ r, A (o, r) * B (r, k)` for the weight with its rank-16 correction merged in
  (`mergedAt`). The result at batch `a`, position `s`, output feature `o` is
  `∑ k, x (a, s, k) * Wm (o, k) + bias o` (`loraAt`): a row of `x` against a row of the merged weight, plus that
  feature's bias. Every sum is a finite sum in the commutative monoid of extended reals, so no finiteness of the
  inputs is used anywhere: the two programs differ only in how they tile the rows and in two reshapes of the
  row-major layout, and neither changes a value.

  `rowsAffineAt` is the same function on the flattened rows `m = a * 4096 + s`, with the bias as a 1 x 4096 row:
  what the last tiled product computes before the result is reshaped back.
-/
import Idealize.ShloMosaic.PureOps.Ideal
import Idealize.ShloMosaic.Lib.ValueIdx

noncomputable section

namespace Cert.Lora

open Idealize.ShloMosaic Idealize.ShloMosaic.ValueIdx

/-- The literal shapes: the activations, a square weight, the bias vector, the two low-rank factors, the flattened
    rows of the activations, and the bias as one row. -/
abbrev SX : Shape := ⟨3, ![4, 4096, 4096]⟩
abbrev SW : Shape := ⟨2, ![4096, 4096]⟩
abbrev Sb : Shape := ⟨1, ![4096]⟩
abbrev SA : Shape := ⟨2, ![4096, 16]⟩
abbrev SB : Shape := ⟨2, ![16, 4096]⟩
abbrev SM : Shape := ⟨2, ![16384, 4096]⟩
abbrev Sb2 : Shape := ⟨2, ![1, 4096]⟩

/-- The merged weight at output feature `o` and input feature `k`: `W (o, k) + ∑ r, A (o, r) * B (r, k)`. -/
def mergedAt (W : SW.Idx → EReal) (A : SA.Idx → EReal) (B : SB.Idx → EReal) (o k : Fin 4096) : EReal :=
  W (ix2 o k) + ∑ r : Fin 16, A (ix2 o r) * B (ix2 r k)

/-- The merged weight as an array. -/
def merged (W : SW.Idx → EReal) (A : SA.Idx → EReal) (B : SB.Idx → EReal) : SW.Idx → EReal :=
  fun i => mergedAt W A B (i 0) (i 1)

theorem merged_ix2 (W : SW.Idx → EReal) (A : SA.Idx → EReal) (B : SB.Idx → EReal) (o k : Fin 4096) :
    merged W A B (ix2 o k) = mergedAt W A B o k := rfl

/-- Row `r` of a 16384 x 4096 array against row `o` of a 4096 x 4096 array, plus entry `o` of a 1 x 4096 row. -/
def rowsAffineAt (X : SM.Idx → EReal) (Wm : SW.Idx → EReal) (b2 : Sb2.Idx → EReal) (r : Fin 16384) (o : Fin 4096) : EReal :=
  (∑ k : Fin 4096, X (ix2 r k) * Wm (ix2 o k)) + b2 (ix2 (0 : Fin 1) o)

/-- The same as an array. -/
def rowsAffine (X : SM.Idx → EReal) (Wm : SW.Idx → EReal) (b2 : Sb2.Idx → EReal) : SM.Idx → EReal :=
  fun i => rowsAffineAt X Wm b2 (i 0) (i 1)

theorem rowsAffine_ix2 (X : SM.Idx → EReal) (Wm : SW.Idx → EReal) (b2 : Sb2.Idx → EReal) (r : Fin 16384) (o : Fin 4096) :
    rowsAffine X Wm b2 (ix2 r o) = rowsAffineAt X Wm b2 r o := rfl

/-- The result at batch `a`, position `s`, output feature `o`. -/
def loraAt (x : SX.Idx → EReal) (W : SW.Idx → EReal) (b : Sb.Idx → EReal) (A : SA.Idx → EReal) (B : SB.Idx → EReal)
    (a : Fin 4) (s o : Fin 4096) : EReal :=
  (∑ k : Fin 4096, x (ix3 a s k) * mergedAt W A B o k) + b (ix1 o)

/-- The result as an array. -/
def lora (x : SX.Idx → EReal) (W : SW.Idx → EReal) (b : Sb.Idx → EReal) (A : SA.Idx → EReal) (B : SB.Idx → EReal) :
    SX.Idx → EReal :=
  fun i => loraAt x W b A B (i 0) (i 1) (i 2)

theorem lora_ix3 (x : SX.Idx → EReal) (W : SW.Idx → EReal) (b : Sb.Idx → EReal) (A : SA.Idx → EReal) (B : SB.Idx → EReal)
    (a : Fin 4) (s o : Fin 4096) : lora x W b A B (ix3 a s o) = loraAt x W b A B a s o := rfl

/-- The flattened row of batch `a`, position `s`. -/
def flatRow (a : Fin 4) (s : Fin 4096) : Fin 16384 := ⟨a.val * 4096 + s.val, by have := a.isLt; have := s.isLt; omega⟩

/-- If the flattened rows `X` hold `x`, the merged array `Wm` holds the merged weight and the row `b2` holds the bias,
    the tiled product on the flattened rows is the result: the two are the same sum, term by term. -/
theorem rowsAffineAt_eq_loraAt (x : SX.Idx → EReal) (W : SW.Idx → EReal) (b : Sb.Idx → EReal) (A : SA.Idx → EReal) (B : SB.Idx → EReal)
    (X : SM.Idx → EReal) (Wm : SW.Idx → EReal) (b2 : Sb2.Idx → EReal) (a : Fin 4) (s o : Fin 4096)
    (hX : ∀ k : Fin 4096, X (ix2 (flatRow a s) k) = x (ix3 a s k))
    (hW : ∀ k : Fin 4096, Wm (ix2 o k) = mergedAt W A B o k)
    (hb : b2 (ix2 (0 : Fin 1) o) = b (ix1 o)) :
    rowsAffineAt X Wm b2 (flatRow a s) o = loraAt x W b A B a s o := by
  unfold rowsAffineAt loraAt
  rw [hb]
  exact congrArg (· + b (ix1 o)) (Finset.sum_congr rfl fun k _ => by rw [hX k, hW k])

end Cert.Lora

end
-- ==== Proof.RunResult.lean ====
/-
  The program's run with its result named.

  The program is six segments in a row: a reshape of the activations to flattened rows, the three tiled regions, a
  reshape of the bias to one row between the second and the third, and a reshape of the rows back at the end. The
  buffer contents at each boundary are a fold from the launch memory (`W0 … W6` of the generated frame module), and
  the segments' triples chain through them. Reading the last thread state against the final memory gives every
  unscoped buffer at `W6`: the argument arrays, which walk back to the launch memory, and the result array, which is
  kept here at `W6` of its buffer for the value lemmas to open.
-/
import proofs.«128208_j37271726194873_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Result

end
-- ==== Proof.Cast.lean ====
/-
  The first tiled region: the flattened activations, passed through.

  Its grid has thirty-two points. Point `t` reads rows `512 t … 512 t + 511` of the 16384 x 4096 array of flattened
  activations, changes the float format of every entry, and writes the block back as the same rows of the output
  array. On extended reals a change of format is the identity, and the thirty-two row blocks tile the array, so the
  output array ends holding, entry by entry, the array the region found.
-/
import proofs.«128208_j37271726194873_2_alg».proof.Proof.Gen.KernelIdeal.Frame
import Idealize.ShloMosaic.Lib.Pipeline.Value
import Idealize.ShloMosaic.Lib.ValueIdx

noncomputable section

namespace Cert.KernelIdeal.Cast

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- What a point stores is the block it loaded. -/
theorem pay_eq (x : Vec Ideal S512x4096 .f32) : k0_pay1 (F := Ideal) x = x := by
  unfold k0_pay1
  rw [shapeCast_self]
  rfl

/-- Both windows move down the rows with the point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Every row block is some point's. -/
theorem idx_onto : ∀ (n : Fin 32), ∃ t : Fin cfg0.N, win0_1.index t = ![n.val, 0] :=
  (by decide +kernel : ∀ (n : Fin 32), ∃ t : Fin grid0.N, win0_1.index t = ![n.val, 0])

section
variable (V : (c : Dev nD) → (b : Ref sig .tc) → Buf (Elt Ideal) ((c : Thread nD τ).loc b))

/-- What the region leaves in its output array: the input array's entries. -/
abbrev result (c : Dev nD) : S16384x4096.Idx → EReal := fun i => V c main_v0 i

/-- What point `t` writes back is its row block of the input array. -/
theorem flushed_eq (c : Dev nD) (t : Fin cfg0.N) :
    (dat0 V c).flushed 1 t = ((cfg0.win 1).blk t).view.read (Elt Ideal) (result V c) := by
  show (cfg0.win 1).cut (grid0.coords t) ((dat0 V c).after 1 t) = _
  rw [after0_1]
  unfold out0_1
  rw [View.canon_unit_zero hz]
  simp only [View.ld_unit_zero (S := S512x4096) hz]
  rw [pay_eq]
  obtain ⟨e0, e1, e2, e3⟩ := idx_facts t
  funext j
  show V c main_v0 (((cfg0.win 0).blk t).view.emb j) = V c main_v0 (((cfg0.win 1).blk t).view.emb j)
  refine congrArg (V c main_v0) (funext fun d => Fin.ext ?_)
  match d with
  | ⟨0, _⟩ => show win0_0.index t (0 : Fin 2) * 512 + 1 * (j 0).val = win0_1.index t (0 : Fin 2) * 512 + 1 * (j 0).val; omega
  | ⟨1, _⟩ => show win0_0.index t (1 : Fin 2) * 4096 + 1 * (j 1).val = win0_1.index t (1 : Fin 2) * 4096 + 1 * (j 1).val; omega

/-- An index of the output array is in point `t`'s block iff each coordinate is in the block's range. -/
theorem mem_blk (t : Fin cfg0.N) (i : S16384x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v1).slice (win0_1.rect t)).set ↔ _
  rw [View.set_slice_whole, Rect.mem_set_unit]
  exact Iff.rfl

/-- The thirty-two row blocks cover the array: row `r` is in the block of point `r / 512`. -/
theorem cover (i : S16384x4096.Idx) : ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The output array after the region holds the input array's entries. -/
theorem final (c : Dev nD) : (dat0 V c).arrAt 1 cfg0.N = result V c :=
  (dat0 V c).arrAt_eq_of_cover 1 (result V c) (fun t _ => flushed_eq V c t) (cover)

end

end Cert.KernelIdeal.Cast

end
-- ==== Proof.Merge.lean ====
/-
  The second tiled region: the merged weight.

  Its grid has eight points. Point `t` reads rows `512 t … 512 t + 511` of the weight `W` and of the factor `A`, and
  all of the factor `B`; it forms the 512 x 4096 product of its rows of `A` with `B` (a contraction over the sixteen
  columns of `A`, into a zero accumulator), adds its rows of `W`, and writes the sum back as rows
  `512 t … 512 t + 511` of the output. A change of float format is the identity on extended reals, so entry
  `(o, k)` of the output array ends at `W (o, k) + ∑ r, A (o, r) * B (r, k)`: the eight row blocks tile the array.
-/
import proofs.«128208_j37271726194873_2_alg».proof.Proof.Gen.KernelIdeal.Frame
import proofs.«128208_j37271726194873_2_alg».proof.Proof.Spec
import Idealize.ShloMosaic.Lib.Pipeline.Value
import Idealize.ShloMosaic.Lib.ValueIdx
import Idealize.ShloMosaic.PureOps.Ideal.Laws

noncomputable section

namespace Cert.KernelIdeal.Merge

open Cert.KernelIdeal Cert.KernelIdeal.Gen Idealize.ShloMosaic Idealize.ShloMosaic.TcCoe Idealize.SL.Sem
open Idealize.ShloMosaic.Pipeline (Dat)
open Idealize.ShloMosaic.ValueIdx Cert.Lora

theorem hz : (![0, 0] : Fin 2 → Nat) = fun _ => 0 := funext fun a => by fin_cases a <;> rfl

/-! ## The product of a 512 x 16 block with a 16 x 4096 block, entry by entry -/

/-- The operand indices of the block product at output entry `(p, q)` and contraction index `r` are `(p, r)` and `(r, q)`. -/
theorem lhs0 (i : S512x4096.Idx) (u : dot_S512x16_S16x4096_S512x4096_1_0_0_1_n_n.contr.Idx) :
    (dot_S512x16_S16x4096_S512x4096_1_0_0_1_n_n.lhsIdx i u 0).val = (i 0).val := by
  unfold DotDims.lhsIdx
  rw [dif_neg (show ¬(0 : Fin S512x16.rank) ∈ dot_S512x16_S16x4096_S512x4096_1_0_0_1_n_n.lhsBatch by decide), dif_pos (show (0 : Fin S512x16.rank) ∈ dot_S512x16_S16x4096_S512x4096_1_0_0_1_n_n.lhsNonContracting by decide)]
  rfl
theorem lhs1 (i : S512x4096.Idx) (u : dot_S512x16_S16x4096_S512x4096_1_0_0_1_n_n.contr.Idx) :
    (dot_S512x16_S16x4096_S512x4096_1_0_0_1_n_n.lhsIdx i u 1).val = (u ⟨0, by decide⟩).val :=
  dot_S512x16_S16x4096_S512x4096_1_0_0_1_n_n.lhsIdx_val_of_single rfl i u
theorem rhs0 (i : S512x4096.Idx) (u : dot_S512x16_S16x4096_S512x4096_1_0_0_1_n_n.contr.Idx) :
    (dot_S512x16_S16x4096_S512x4096_1_0_0_1_n_n.rhsIdx i u 0).val = (u ⟨0, by decide⟩).val :=
  dot_S512x16_S16x4096_S512x4096_1_0_0_1_n_n.rhsIdx_val_of_single rfl i u
theorem rhs1 (i : S512x4096.Idx) (u : dot_S512x16_S16x4096_S512x4096_1_0_0_1_n_n.contr.Idx) :
    (dot_S512x16_S16x4096_S512x4096_1_0_0_1_n_n.rhsIdx i u 1).val = (i 1).val := by
  unfold DotDims.rhsIdx
  rw [dif_neg (show ¬(1 : Fin S16x4096.rank) ∈ dot_S512x16_S16x4096_S512x4096_1_0_0_1_n_n.rhsBatch by decide), dif_pos (show (1 : Fin S16x4096.rank) ∈ dot_S512x16_S16x4096_S512x4096_1_0_0_1_n_n.rhsNonContracting by decide)]
  rfl

/-- The block product into a zero accumulator at entry `(p, q)` is `∑ r, a (p, r) * b (r, q)`. -/
theorem prod_apply (a : FVec Ideal S512x16 .bf16) (b : FVec Ideal S16x4096 .bf16) (p : Fin 512) (q : Fin 4096) :
    FloatOps.matmul dot_S512x16_S16x4096_S512x4096_1_0_0_1_n_n none a b (constant S512x4096 .f32 0x00000000#32) (ix2 p q)
      = ∑ r : Fin 16, a (ix2 p r) * b (ix2 r q) := by
  rw [Ideal.matmul_constant_zero_apply, ← Equiv.sum_comp (contrEquiv1 dot_S512x16_S16x4096_S512x4096_1_0_0_1_n_n 16 rfl rfl).symm]
  refine Finset.sum_congr rfl fun r _ => ?_
  have hr := contrEquiv1_symm_val dot_S512x16_S16x4096_S512x4096_1_0_0_1_n_n 16 rfl rfl r
  have el : dot_S512x16_S16x4096_S512x4096_1_0_0_1_n_n.lhsIdx (ix2 p q) ((contrEquiv1 dot_S512x16_S16x4096_S512x4096_1_0_0_1_n_n 16 rfl rfl).symm r) = ix2 p r := funext fun d => Fin.ext (by
    match d with
    | ⟨0, _⟩ => exact lhs0 _ _
    | ⟨1, _⟩ => exact (lhs1 _ _).trans hr)
  have er : dot_S512x16_S16x4096_S512x4096_1_0_0_1_n_n.rhsIdx (ix2 p q) ((contrEquiv1 dot_S512x16_S16x4096_S512x4096_1_0_0_1_n_n 16 rfl rfl).symm r) = ix2 r q := funext fun d => Fin.ext (by
    match d with
    | ⟨0, _⟩ => exact (rhs0 _ _).trans hr
    | ⟨1, _⟩ => exact rhs1 _ _)
  rw [el, er]

/-- What a point stores, entry by entry: its rows of `W` plus its rows of `A` times `B`. -/
theorem pay_apply (a : Vec Ideal S512x16 .f32) (b : Vec Ideal S16x4096 .f32) (w : Vec Ideal S512x4096 .f32) (p : Fin 512) (q : Fin 4096) :
    k1_pay1 (F := Ideal) a b w (ix2 p q) = w (ix2 p q) + ∑ r : Fin 16, a (ix2 p r) * b (ix2 r q) := by
  unfold k1_pay1
  exact congrArg (w (ix2 p q) + ·) (prod_apply a b p q)

/-- The same with the three blocks read off arrays: if the point's blocks hold row `o` of `W` and of `A` and all of `B`,
    the entry it stores is the merged weight at `(o, q)`. -/
theorem pay_merged (Wv : SW.Idx → EReal) (Av : SA.Idx → EReal) (Bv : SB.Idx → EReal)
    (a : Vec Ideal S512x16 .f32) (b : Vec Ideal S16x4096 .f32) (w : Vec Ideal S512x4096 .f32) (p : Fin 512) (q o : Fin 4096)
    (hw : w (ix2 p q) = Wv (ix2 o q)) (ha : ∀ r : Fin 16, a (ix2 p r) = Av (ix2 o r)) (hb : ∀ r : Fin 16, b (ix2 r q) = Bv (ix2 r q)) :
    k1_pay1 (F := Ideal) a b w (ix2 p q) = mergedAt Wv Av Bv o q := by
  rw [pay_apply, hw]
  unfold mergedAt
  exact congrArg (Wv (ix2 o q) + ·) (Finset.sum_congr rfl fun r _ => by rw [ha r, hb r])

/-! ## The grid -/

/-- Every window but `B`'s moves down the rows with the point; `B`'s stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ (n : Fin 8), ∃ t : Fin cfg1.N, win1_3.index t = ![n.val, 0] :=
  (by decide +kernel : ∀ (n : Fin 8), ∃ t : Fin grid1.N, win1_3.index t = ![n.val, 0])

section
variable (V : (c : Dev nD) → (b : Ref sig .tc) → Buf (Elt Ideal) ((c : Thread nD τ).loc b))

/-- What the region leaves in its output array, as one function of the arrays it finds. -/
abbrev result (c : Dev nD) : S4096x4096.Idx → EReal :=
  merged (V c main_arg1) (V c main_arg3) (V c main_arg4)

/-- What point `t` writes back is its row block of the merged weight. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S512x16) hz, View.ld_unit_zero (S := S16x4096) hz, View.ld_unit_zero (S := S512x4096) hz]
  obtain ⟨e0, e1, e2, e3, e4, e5, e6, e7⟩ := idx_facts t
  funext j
  obtain ⟨p, q, rfl⟩ : ∃ (p : Fin 512) (q : Fin 4096), j = ix2 p q := ⟨j 0, j 1, eq_ix2 j⟩
  have ht : t.val < 8 := t.isLt
  have hw : ∀ (p : Fin 512) (q : Fin 4096), iblk1 V c 0 t (ix2 p q) = V c main_arg1 (ix2 (⟨t.val * 512 + p.val, by omega⟩ : Fin 4096) q) := fun p q => by
    show V c main_arg1 (((cfg1.win 0).blk t).view.emb (ix2 p q)) = _
    refine congrArg (V c main_arg1) (funext fun d => Fin.ext ?_)
    match d with
    | ⟨0, _⟩ => show win1_0.index t (0 : Fin 2) * 512 + 1 * p.val = t.val * 512 + p.val; omega
    | ⟨1, _⟩ => show win1_0.index t (1 : Fin 2) * 4096 + 1 * q.val = q.val; omega
  have ha : ∀ (p : Fin 512) (r : Fin 16), iblk1 V c 1 t (ix2 p r) = V c main_arg3 (ix2 (⟨t.val * 512 + p.val, by omega⟩ : Fin 4096) r) := fun p r => by
    show V c main_arg3 (((cfg1.win 1).blk t).view.emb (ix2 p r)) = _
    refine congrArg (V c main_arg3) (funext fun d => Fin.ext ?_)
    match d with
    | ⟨0, _⟩ => show win1_1.index t (0 : Fin 2) * 512 + 1 * p.val = t.val * 512 + p.val; omega
    | ⟨1, _⟩ => show win1_1.index t (1 : Fin 2) * 16 + 1 * r.val = r.val; omega
  have hb : ∀ (r : Fin 16) (q : Fin 4096), iblk1 V c 2 t (ix2 r q) = V c main_arg4 (ix2 r q) := fun r q => by
    show V c main_arg4 (((cfg1.win 2).blk t).view.emb (ix2 r q)) = _
    refine congrArg (V c main_arg4) (funext fun d => Fin.ext ?_)
    match d with
    | ⟨0, _⟩ => show win1_2.index t (0 : Fin 2) * 16 + 1 * r.val = r.val; omega
    | ⟨1, _⟩ => show win1_2.index t (1 : Fin 2) * 4096 + 1 * q.val = q.val; omega
  have ho : ((cfg1.win 3).blk t).view.emb (ix2 p q) = ix2 (⟨t.val * 512 + p.val, by omega⟩ : Fin 4096) q := funext fun d => Fin.ext (by
    match d with
    | ⟨0, _⟩ => show win1_3.index t (0 : Fin 2) * 512 + 1 * p.val = t.val * 512 + p.val; omega
    | ⟨1, _⟩ => show win1_3.index t (1 : Fin 2) * 4096 + 1 * q.val = q.val; omega)
  show k1_pay1 (F := Ideal) (iblk1 V c 1 t) (iblk1 V c 2 t) (iblk1 V c 0 t) (ix2 p q) = result V c (((cfg1.win 3).blk t).view.emb (ix2 p q))
  rw [ho]
  exact pay_merged (V c main_arg1) (V c main_arg3) (V c main_arg4) (iblk1 V c 1 t) (iblk1 V c 2 t) (iblk1 V c 0 t) p q
    (⟨t.val * 512 + p.val, by omega⟩ : Fin 4096) (hw p q) (fun r => ha p r) (fun r => hb r q)

/-- An index of the output array is in point `t`'s block iff each coordinate is in the block's range. -/
theorem mem_blk (t : Fin cfg1.N) (i : S4096x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v2).slice (win1_3.rect t)).set ↔ _
  rw [View.set_slice_whole, Rect.mem_set_unit]
  exact Iff.rfl

/-- The eight row blocks cover the array: row `o` is in the block of point `o / 512`. -/
theorem cover (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-- The output array after the region is the merged weight of the arrays the region found. -/
theorem final (c : Dev nD) : (dat1 V c).arrAt 3 cfg1.N = result V c :=
  (dat1 V c).arrAt_eq_of_cover 3 (result V c) (fun t _ => flushed_eq V c t) (cover)

end

end Cert.KernelIdeal.Merge

end
-- ==== Proof.Matmul.lean ====
/-
  The third tiled region: rows of the activations against rows of the merged weight, plus the bias.

  Its grid is 16 x 8, point `t` at row tile `t / 8` and column tile `t % 8`. The point reads rows
  `1024 (t / 8) … + 1023` of the 16384 x 4096 activations, rows `512 (t % 8) … + 511` of the 4096 x 4096 merged weight,
  and entries `512 (t % 8) … + 511` of the 1 x 4096 bias row; it contracts the two blocks over their 4096 columns
  (into a zero accumulator), adds the bias entries along every row, and writes the 1024 x 512 block back at row tile
  `t / 8`, column tile `t % 8`. The 128 blocks tile the 16384 x 4096 output, so entry `(r, o)` of it ends at
  `∑ k, X (r, k) * Wm (o, k) + b (0, o)`.
-/
import proofs.«128208_j37271726194873_2_alg».proof.Proof.Gen.KernelIdeal.Frame
import proofs.«128208_j37271726194873_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Matmul

open Cert.KernelIdeal Cert.KernelIdeal.Gen Idealize.ShloMosaic Idealize.ShloMosaic.TcCoe Idealize.SL.Sem
open Idealize.ShloMosaic.Pipeline (Dat)
open Idealize.ShloMosaic.ValueIdx Cert.Lora

theorem hz : (![0, 0] : Fin 2 → Nat) = fun _ => 0 := funext fun a => by fin_cases a <;> rfl

/-! ## A 1024 x 4096 block against a 512 x 4096 block along their columns, entry by entry -/

/-- The operand indices of the block product at output entry `(p, q)` and contraction index `k` are `(p, k)` and `(q, k)`. -/
theorem lhs0 (i : S1024x512.Idx) (u : dot_S1024x4096_S512x4096_S1024x512_1_1_0_0_n_n.contr.Idx) :
    (dot_S1024x4096_S512x4096_S1024x512_1_1_0_0_n_n.lhsIdx i u 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs1 (i : S1024x512.Idx) (u : dot_S1024x4096_S512x4096_S1024x512_1_1_0_0_n_n.contr.Idx) :
    (dot_S1024x4096_S512x4096_S1024x512_1_1_0_0_n_n.lhsIdx i u 1).val = (u ⟨0, by decide⟩).val :=
  dot_S1024x4096_S512x4096_S1024x512_1_1_0_0_n_n.lhsIdx_val_of_single rfl i u
theorem rhs0 (i : S1024x512.Idx) (u : dot_S1024x4096_S512x4096_S1024x512_1_1_0_0_n_n.contr.Idx) :
    (dot_S1024x4096_S512x4096_S1024x512_1_1_0_0_n_n.rhsIdx i u 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs1 (i : S1024x512.Idx) (u : dot_S1024x4096_S512x4096_S1024x512_1_1_0_0_n_n.contr.Idx) :
    (dot_S1024x4096_S512x4096_S1024x512_1_1_0_0_n_n.rhsIdx i u 1).val = (u ⟨0, by decide⟩).val :=
  dot_S1024x4096_S512x4096_S1024x512_1_1_0_0_n_n.rhsIdx_val_of_single rfl i u

/-- The block product into a zero accumulator at entry `(p, q)` is `∑ k, x (p, k) * w (q, k)`. -/
theorem prod_apply (x : FVec Ideal S1024x4096 .bf16) (w : FVec Ideal S512x4096 .bf16) (p : Fin 1024) (q : Fin 512) :
    FloatOps.matmul dot_S1024x4096_S512x4096_S1024x512_1_1_0_0_n_n none x w (constant S1024x512 .f32 0x00000000#32) (ix2 p q)
      = ∑ k : Fin 4096, x (ix2 p k) * w (ix2 q k) := by
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun d => Fin.ext (by
    match d with
    | ⟨0, _⟩ => exact lhs0 _ _
    | ⟨1, _⟩ => exact (lhs1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun d => Fin.ext (by
    match d with
    | ⟨0, _⟩ => exact rhs0 _ _
    | ⟨1, _⟩ => exact (rhs1 _ _).trans hk)
  rw [el, er]

/-- What a point stores, entry by entry: its rows of the activations against its rows of the weight, plus its bias entries. -/
theorem pay_apply (x : Vec Ideal S1024x4096 .bf16) (w : Vec Ideal S512x4096 .bf16) (b : Vec Ideal S1x512 .f32) (p : Fin 1024) (q : Fin 512) :
    k2_pay1 (F := Ideal) x w b (ix2 p q) = (∑ k : Fin 4096, x (ix2 p k) * w (ix2 q k)) + b (ix2 (0 : Fin 1) q) := by
  unfold k2_pay1
  simp only [shapeCast_self]
  exact congrArg₂ (fun u v : EReal => u + v) (prod_apply x w p q)
    (broadcastTo_1b_ab_apply b broadcasts_S1x512_S1024x512 p q)

/-! ## The grid -/

/-- The activations' window moves with the row tile, the weight's and the bias's with the column tile, the output's with both. -/
theorem idx_facts : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = t.val % 8
    ∧ win2_3.index t (0 : Fin 2) = t.val / 8 ∧ win2_3.index t (1 : Fin 2) = t.val % 8 :=
  (by decide +kernel : ∀ t : Fin grid2.N, _)

/-- Every block of the output is some point's. -/
theorem idx_onto : ∀ (n : Fin 16) (k : Fin 8), ∃ t : Fin cfg2.N, win2_3.index t = ![n.val, k.val] :=
  (by decide +kernel : ∀ (n : Fin 16) (k : Fin 8), ∃ t : Fin grid2.N, win2_3.index t = ![n.val, k.val])

section
variable (V : (c : Dev nD) → (b : Ref sig .tc) → Buf (Elt Ideal) ((c : Thread nD τ).loc b))

/-- What the region leaves in its output array, as one function of the arrays it finds. -/
abbrev result (c : Dev nD) : S16384x4096.Idx → EReal :=
  rowsAffine (fun i => V c main_v1 i) (fun i => V c main_v2 i) (V c main_v3)

/-- What point `t` writes back is its block of that function. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S1024x4096) hz, View.ld_unit_zero (S := S512x4096) hz, View.ld_unit_zero (S := S1x512) hz]
  obtain ⟨e0, e1, e2, e3, e4, e5, e6, e7⟩ := idx_facts t
  funext j
  obtain ⟨p, q, rfl⟩ : ∃ (p : Fin 1024) (q : Fin 512), j = ix2 p q := ⟨j 0, j 1, eq_ix2 j⟩
  have ht : t.val < 128 := t.isLt
  have hx : ∀ (p : Fin 1024) (k : Fin 4096), iblk2 V c 0 t (ix2 p k) = V c main_v1 (ix2 (⟨t.val / 8 * 1024 + p.val, by omega⟩ : Fin 16384) k) := fun p k => by
    show V c main_v1 (((cfg2.win 0).blk t).view.emb (ix2 p k)) = _
    refine congrArg (V c main_v1) (funext fun d => Fin.ext ?_)
    match d with
    | ⟨0, _⟩ => show win2_0.index t (0 : Fin 2) * 1024 + 1 * p.val = t.val / 8 * 1024 + p.val; omega
    | ⟨1, _⟩ => show win2_0.index t (1 : Fin 2) * 4096 + 1 * k.val = k.val; omega
  have hw : ∀ (q : Fin 512) (k : Fin 4096), iblk2 V c 1 t (ix2 q k) = V c main_v2 (ix2 (⟨t.val % 8 * 512 + q.val, by omega⟩ : Fin 4096) k) := fun q k => by
    show V c main_v2 (((cfg2.win 1).blk t).view.emb (ix2 q k)) = _
    refine congrArg (V c main_v2) (funext fun d => Fin.ext ?_)
    match d with
    | ⟨0, _⟩ => show win2_1.index t (0 : Fin 2) * 512 + 1 * q.val = t.val % 8 * 512 + q.val; omega
    | ⟨1, _⟩ => show win2_1.index t (1 : Fin 2) * 4096 + 1 * k.val = k.val; omega
  have hb : ∀ (q : Fin 512), iblk2 V c 2 t (ix2 (0 : Fin 1) q) = V c main_v3 (ix2 (0 : Fin 1) (⟨t.val % 8 * 512 + q.val, by omega⟩ : Fin 4096)) := fun q => by
    show V c main_v3 (((cfg2.win 2).blk t).view.emb (ix2 (0 : Fin 1) q)) = _
    refine congrArg (V c main_v3) (funext fun d => Fin.ext ?_)
    match d with
    | ⟨0, _⟩ => show win2_2.index t (0 : Fin 2) * 1 + 1 * 0 = 0; omega
    | ⟨1, _⟩ => show win2_2.index t (1 : Fin 2) * 512 + 1 * q.val = t.val % 8 * 512 + q.val; omega
  have ho : ((cfg2.win 3).blk t).view.emb (ix2 p q) = ix2 (⟨t.val / 8 * 1024 + p.val, by omega⟩ : Fin 16384) (⟨t.val % 8 * 512 + q.val, by omega⟩ : Fin 4096) := funext fun d => Fin.ext (by
    match d with
    | ⟨0, _⟩ => show win2_3.index t (0 : Fin 2) * 1024 + 1 * p.val = t.val / 8 * 1024 + p.val; omega
    | ⟨1, _⟩ => show win2_3.index t (1 : Fin 2) * 512 + 1 * q.val = t.val % 8 * 512 + q.val; omega)
  show k2_pay1 (F := Ideal) (iblk2 V c 0 t) (iblk2 V c 1 t) (iblk2 V c 2 t) (ix2 p q) = result V c (((cfg2.win 3).blk t).view.emb (ix2 p q))
  rw [ho, pay_apply, hb]
  show _ = rowsAffineAt (fun i => V c main_v1 i) (fun i => V c main_v2 i) (V c main_v3) _ _
  unfold rowsAffineAt
  exact congrArg (fun z : EReal => z + (V c main_v3 : S1x4096.Idx → EReal) (ix2 (0 : Fin 1) (⟨t.val % 8 * 512 + q.val, by omega⟩ : Fin 4096)))
    (Finset.sum_congr rfl fun k _ => by rw [hx, hw])

/-- An index of the output array is in point `t`'s block iff each coordinate is in the block's range. -/
theorem mem_blk (t : Fin cfg2.N) (i : S16384x4096.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v4).slice (win2_3.rect t)).set ↔ _
  rw [View.set_slice_whole, Rect.mem_set_unit]
  exact Iff.rfl

/-- The 128 blocks cover the array: entry `(r, o)` is in the block at row tile `r / 1024`, column tile `o / 512`. -/
theorem cover (i : S16384x4096.Idx) : ∃ t : Fin cfg2.N, (cfg2.win 3).flush t = true ∧ i ∈ ((cfg2.win 3).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The output array after the region is that function of the arrays the region found. -/
theorem final (c : Dev nD) : (dat2 V c).arrAt 3 cfg2.N = result V c :=
  (dat2 V c).arrAt_eq_of_cover 3 (result V c) (fun t _ => flushed_eq V c t) (cover)

end

end Cert.KernelIdeal.Matmul

end
-- ==== Proof.Fold.lean ====
/-
  The result array as one function of the argument arrays.

  The contents of the buffers at the six segment boundaries are a fold from the launch memory. Read backwards from
  the result: the result is the last region's output reshaped from 16384 x 4096 rows to 4 x 4096 x 4096; that output
  is rows of the first region's output against rows of the second region's output plus the reshaped bias; the first
  region's output holds the flattened activations, the second's the merged weight of `W`, `A`, `B`, which no earlier
  segment has written. A reshape keeps the row-major position, so flattened row `a * 4096 + s` is batch `a`,
  position `s`, and the whole is `lora` of the five arguments.
-/
import proofs.«128208_j37271726194873_2_alg».proof.Proof.Gen.KernelIdeal.Frame
import proofs.«128208_j37271726194873_2_alg».proof.Proof.Spec
import proofs.«128208_j37271726194873_2_alg».proof.Proof.Cast
import proofs.«128208_j37271726194873_2_alg».proof.Proof.Merge
import proofs.«128208_j37271726194873_2_alg».proof.Proof.Matmul
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Fold

open Cert.KernelIdeal Cert.KernelIdeal.Gen Idealize.ShloMosaic Idealize.ShloMosaic.TcCoe Idealize.SL.Sem
open Idealize.ShloMosaic.StableHlo
open Idealize.ShloMosaic.ValueIdx Cert.Lora

variable (m : (ℓ : Loc nD τ sig) → Buf (Elt Ideal) ℓ) (ρ : Dev nD → PrngReg)

/-! ## Entering the first region: the activations flattened, the other arguments untouched -/

theorem entry0_v0 (c : Dev nD) :
    (V1 m ρ c main_v0 : S16384x4096.Idx → EReal)
      = shapeCast S16384x4096 (m ((c : Thread nD τ).loc main_arg0) : S4x4096x4096.Idx → EReal) shapeCasts_S4x4096x4096_S16384x4096 := by
  dsimp only [V1, W1, hostOps0]
  after_results
  rfl

theorem entry0_arg1 (c : Dev nD) : V1 m ρ c main_arg1 = m ((c : Thread nD τ).loc main_arg1) := by
  dsimp only [V1, W1, hostOps0]
  after_results
theorem entry0_arg2 (c : Dev nD) : V1 m ρ c main_arg2 = m ((c : Thread nD τ).loc main_arg2) := by
  dsimp only [V1, W1, hostOps0]
  after_results
theorem entry0_arg3 (c : Dev nD) : V1 m ρ c main_arg3 = m ((c : Thread nD τ).loc main_arg3) := by
  dsimp only [V1, W1, hostOps0]
  after_results
theorem entry0_arg4 (c : Dev nD) : V1 m ρ c main_arg4 = m ((c : Thread nD τ).loc main_arg4) := by
  dsimp only [V1, W1, hostOps0]
  after_results

/-! ## Leaving the first region: its output holds the flattened activations -/

theorem exit0_v1 (c : Dev nD) :
    (V2 m ρ c main_v1 : S16384x4096.Idx → EReal) = fun i => (V1 m ρ c main_v0 : S16384x4096.Idx → EReal) i :=
  (W2_arr m ρ c 1).trans (Cast.final (V1 m ρ) c)

theorem exit0_arg1 (c : Dev nD) : V2 m ρ c main_arg1 = m ((c : Thread nD τ).loc main_arg1) :=
  (W2_of_ne m ρ c main_arg1 (by decide)).trans (entry0_arg1 m ρ c)
theorem exit0_arg2 (c : Dev nD) : V2 m ρ c main_arg2 = m ((c : Thread nD τ).loc main_arg2) :=
  (W2_of_ne m ρ c main_arg2 (by decide)).trans (entry0_arg2 m ρ c)
theorem exit0_arg3 (c : Dev nD) : V2 m ρ c main_arg3 = m ((c : Thread nD τ).loc main_arg3) :=
  (W2_of_ne m ρ c main_arg3 (by decide)).trans (entry0_arg3 m ρ c)
theorem exit0_arg4 (c : Dev nD) : V2 m ρ c main_arg4 = m ((c : Thread nD τ).loc main_arg4) :=
  (W2_of_ne m ρ c main_arg4 (by decide)).trans (entry0_arg4 m ρ c)

/-! ## Leaving the second region: its output holds the merged weight -/

theorem exit1_v2 (c : Dev nD) :
    (V3 m ρ c main_v2 : S4096x4096.Idx → EReal)
      = merged (m ((c : Thread nD τ).loc main_arg1)) (m ((c : Thread nD τ).loc main_arg3)) (m ((c : Thread nD τ).loc main_arg4)) := by
  refine ((W3_arr m ρ c 3).trans (Merge.final (V2 m ρ) c)).trans ?_
  show merged (V2 m ρ c main_arg1) (V2 m ρ c main_arg3) (V2 m ρ c main_arg4) = _
  rw [exit0_arg1, exit0_arg3, exit0_arg4]

theorem exit1_v1 (c : Dev nD) : V3 m ρ c main_v1 = V2 m ρ c main_v1 :=
  W3_of_ne m ρ c main_v1 (by decide)
theorem exit1_arg2 (c : Dev nD) : V3 m ρ c main_arg2 = m ((c : Thread nD τ).loc main_arg2) :=
  (W3_of_ne m ρ c main_arg2 (by decide)).trans (exit0_arg2 m ρ c)

/-! ## Entering the third region: the bias as one row, the two outputs untouched -/

theorem entry2_v3 (c : Dev nD) :
    (V4 m ρ c main_v3 : S1x4096.Idx → EReal)
      = shapeCast S1x4096 (V3 m ρ c main_arg2 : S4096.Idx → EReal) shapeCasts_S4096_S1x4096 := by
  dsimp only [V4, W4, hostOps2]
  after_results
  rfl
theorem entry2_v1 (c : Dev nD) : V4 m ρ c main_v1 = V3 m ρ c main_v1 := by
  dsimp only [V4, W4, hostOps2]
  after_results
theorem entry2_v2 (c : Dev nD) : V4 m ρ c main_v2 = V3 m ρ c main_v2 := by
  dsimp only [V4, W4, hostOps2]
  after_results

/-! ## What the third region reads, entry by entry, in terms of the arguments -/

/-- Flattened row `a * 4096 + s` of the activations is batch `a`, position `s`. -/
theorem rows_at (c : Dev nD) (a : Fin 4) (s k : Fin 4096) :
    (V4 m ρ c main_v1 : S16384x4096.Idx → EReal) (ix2 (flatRow a s) k)
      = (m ((c : Thread nD τ).loc main_arg0) : S4x4096x4096.Idx → EReal) (ix3 a s k) := by
  rw [entry2_v1, exit1_v1, exit0_v1, entry0_v0]
  refine shapeCast_apply _ _ (ix2 (flatRow a s) k) (ix3 a s k) ?_
  rw [Shape.rowMajor_val_two, Shape.rowMajor_val_three]
  rfl

/-- The weight it reads is the merged weight. -/
theorem weight_at (c : Dev nD) (o k : Fin 4096) :
    (V4 m ρ c main_v2 : S4096x4096.Idx → EReal) (ix2 o k)
      = mergedAt (m ((c : Thread nD τ).loc main_arg1)) (m ((c : Thread nD τ).loc main_arg3)) (m ((c : Thread nD τ).loc main_arg4)) o k := by
  rw [entry2_v2, exit1_v2]
  rfl

/-- The bias row it reads holds the bias. -/
theorem bias_at (c : Dev nD) (o : Fin 4096) :
    (V4 m ρ c main_v3 : S1x4096.Idx → EReal) (ix2 (0 : Fin 1) o)
      = (m ((c : Thread nD τ).loc main_arg2) : S4096.Idx → EReal) (ix1 o) := by
  rw [entry2_v3, exit1_arg2]
  exact shapeCast_a_1a_apply _ _ (0 : Fin 1) o

/-! ## The result -/

theorem exit2_v4 (c : Dev nD) :
    (W5 m ρ c (Proc.devRef .tc main_v4) : S16384x4096.Idx → EReal)
      = rowsAffine (fun i => (V4 m ρ c main_v1 : S16384x4096.Idx → EReal) i) (fun i => (V4 m ρ c main_v2 : S4096x4096.Idx → EReal) i) (V4 m ρ c main_v3) :=
  (W5_arr m ρ c 3).trans (Matmul.final (V4 m ρ) c)

theorem last_v5 (c : Dev nD) :
    (W6 m ρ c (Proc.devRef .tc main_v5) : S4x4096x4096.Idx → EReal)
      = shapeCast S4x4096x4096 (W5 m ρ c (Proc.devRef .tc main_v4) : S16384x4096.Idx → EReal) shapeCasts_S16384x4096_S4x4096x4096 := by
  dsimp only [W6, hostOps3]
  after_results
  rfl

/-- The result array after the run is `lora` of the five argument arrays as launched. -/
theorem result_eq (c : Dev nD) :
    (W6 m ρ c (Proc.devRef .tc main_v5) : S4x4096x4096.Idx → EReal)
      = lora (m ((c : Thread nD τ).loc main_arg0)) (m ((c : Thread nD τ).loc main_arg1)) (m ((c : Thread nD τ).loc main_arg2))
          (m ((c : Thread nD τ).loc main_arg3)) (m ((c : Thread nD τ).loc main_arg4)) := by
  rw [last_v5, exit2_v4]
  funext i
  obtain ⟨a, s, o, rfl⟩ : ∃ (a : Fin 4) (s o : Fin 4096), i = ix3 a s o := ⟨i 0, i 1, i 2, eq_ix3 i⟩
  rw [lora_ix3]
  refine (shapeCast_apply _ _ (ix3 a s o) (ix2 (flatRow a s) o) ?_).trans ?_
  · rw [Shape.rowMajor_val_two, Shape.rowMajor_val_three]
    rfl
  rw [rowsAffine_ix2]
  exact rowsAffineAt_eq_loraAt _ _ _ _ _ _ _ _ a s o (fun k => rows_at m ρ c a s k) (fun k => weight_at m ρ c o k) (bias_at m ρ c o)

end Cert.KernelIdeal.Fold

end
-- ==== Proof.RefSide.lean ====
/-
  The reference computes the same function.

  The reference forms `A @ B` (a contraction over the sixteen columns of `A`), adds `W`, contracts the activations'
  last axis with the second axis of that sum, and adds the bias broadcast along the first two axes. Read at batch
  `a`, position `s`, output feature `o`, stage by stage, that is
  `∑ k, x (a, s, k) * (W (o, k) + ∑ r, A (o, r) * B (r, k)) + bias o`: the operand indices of each stage at
  coordinates written out are the coordinates of `lora`.
-/
import proofs.«128208_j37271726194873_2_alg».proof.Proof.Gen.ReferenceIdeal.Read
import proofs.«128208_j37271726194873_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Lora

/-- The sum `W + A @ B` at `(o, k)` is the merged weight. -/
theorem sum_at (x1 : (⟨S4096x4096, .f32⟩ : BufTy).Contents (Elt Ideal)) (x3 : (⟨S4096x16, .f32⟩ : BufTy).Contents (Elt Ideal))
    (x4 : (⟨S16x4096, .f32⟩ : BufTy).Contents (Elt Ideal)) (o k : Fin 4096) :
    val_main_v1 (F := Ideal) x1 x3 x4 (ix2 o k) = mergedAt x1 x3 x4 o k := by
  rw [val_main_v1_apply, val_main_v0_apply]
  unfold mergedAt
  refine congrArg (fun z : EReal => (x1 (ix2 o k) : EReal) + z) (Finset.sum_congr rfl fun r _ => ?_)
  rw [show lidx_main_v0 (ix2 o k) r = ix2 o r from funext fun d => Fin.ext (by
        match d with
        | ⟨0, _⟩ => rfl
        | ⟨1, _⟩ => rfl),
    show ridx_main_v0 (ix2 o k) r = ix2 r k from funext fun d => Fin.ext (by
        match d with
        | ⟨0, _⟩ => rfl
        | ⟨1, _⟩ => rfl)]

/-- The reference's result, stage by stage, is `lora` of its arguments. -/
theorem result_eq (x0 : (⟨S4x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) :
    val_main_v5 (F := Ideal) x0 x1 x2 x3 x4 = lora x0 x1 x2 x3 x4 := by
  funext i
  obtain ⟨a, s, o, rfl⟩ : ∃ (a : Fin 4) (s o : Fin 4096), i = ix3 a s o := ⟨i 0, i 1, i 2, eq_ix3 i⟩
  rw [lora_ix3, val_main_v5_apply, val_main_v2_apply, val_main_v4_apply, val_main_v3_apply]
  unfold loraAt
  have e1 : ∀ k : Fin 4096, lidx_main_v2 (ix3 a s o) k = ix3 a s k := fun k => funext fun d => Fin.ext (by
    match d with
    | ⟨0, _⟩ => rfl
    | ⟨1, _⟩ => rfl
    | ⟨2, _⟩ => rfl)
  have e2 : ∀ k : Fin 4096, ridx_main_v2 (ix3 a s o) k = ix2 o k := fun k => funext fun d => Fin.ext (by
    match d with
    | ⟨0, _⟩ => rfl
    | ⟨1, _⟩ => rfl)
  have e3 : idx_main_v3 (idx_main_v4 (ix3 a s o)) = ix1 o := funext fun d => Fin.ext (by
    match d with
    | ⟨0, _⟩ => rfl)
  rw [e3]
  refine congrArg (fun z : EReal => z + (x2 (ix1 o) : EReal)) (Finset.sum_congr rfl fun k _ => ?_)
  rw [e1 k, e2 k, sum_at]

end Cert.ReferenceIdeal.RefValue

end
-- ==== Proof.lean ====
/-
  A linear layer with a rank-16 correction, `out = x · (W + A · B)ᵀ + bias`, as three tiled kernels against its plain
  form: the two programs end with equal results on the extended reals.

  With `Wm (o, k) = W (o, k) + ∑ r, A (o, r) * B (r, k)`, both compute
  `out (a, s, o) = ∑ k, x (a, s, k) * Wm (o, k) + bias o` (`Cert.Lora.lora`, Proof/Spec.lean).
  The kernel program flattens the activations to 16384 rows, passes them through a first region that only changes
  their float format (Proof/Cast.lean), forms `Wm` in a second region, eight row blocks at a time (Proof/Merge.lean),
  reshapes the bias to one row, and in a third region contracts 1024-row blocks of the activations against 512-row
  blocks of `Wm` and adds the bias (Proof/Matmul.lean); the 16384 x 4096 result is reshaped back. Each region's
  blocks tile its output array, a change of float format is the identity on extended reals, and a reshape keeps the
  row-major position, so the result array is `lora` of the arguments (Proof/Fold.lean, over the run of
  Proof/RunResult.lean). The reference's stages read at an index give the same sums term by term
  (Proof/RefSide.lean). Only commutative-monoid facts about finite sums are used: the inputs' finiteness is not.

  The three frame claims are the programs' generated runs with the result dropped; the idealization rewrote nothing,
  so `preserves` is `True`.
-/
import proofs.«128208_j37271726194873_2_alg».proof.Defs
import proofs.«128208_j37271726194873_2_alg».proof.Proof.Gen.Kernel
import proofs.«128208_j37271726194873_2_alg».proof.Proof.Gen.Kernel.Skeleton
import proofs.«128208_j37271726194873_2_alg».proof.Proof.Gen.Kernel.Launch
import proofs.«128208_j37271726194873_2_alg».proof.Proof.Gen.Kernel.Points
import proofs.«128208_j37271726194873_2_alg».proof.Proof.Gen.Kernel.Frame
import proofs.«128208_j37271726194873_2_alg».proof.Proof.Gen.KernelIdeal
import proofs.«128208_j37271726194873_2_alg».proof.Proof.Gen.KernelIdeal.Skeleton
import proofs.«128208_j37271726194873_2_alg».proof.Proof.Gen.KernelIdeal.Launch
import proofs.«128208_j37271726194873_2_alg».proof.Proof.Gen.KernelIdeal.Points
import proofs.«128208_j37271726194873_2_alg».proof.Proof.Gen.KernelIdeal.Frame
import proofs.«128208_j37271726194873_2_alg».proof.Proof.Gen.ReferenceIdeal
import proofs.«128208_j37271726194873_2_alg».proof.Proof.Gen.Pre_finite_inputs
import proofs.«128208_j37271726194873_2_alg».proof.Proof.Gen.ReferenceIdeal.Run
import proofs.«128208_j37271726194873_2_alg».proof.Proof.Gen.ReferenceIdeal.Read
import proofs.«128208_j37271726194873_2_alg».proof.Proof.Spec
import proofs.«128208_j37271726194873_2_alg».proof.Proof.RunResult
import proofs.«128208_j37271726194873_2_alg».proof.Proof.Fold
import proofs.«128208_j37271726194873_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `lora` of the argument arrays: the kernel program's by the fold through
    its three regions, the reference's by its stages read at an index; the arguments agree by hypothesis. -/
theorem algebraic : Cert.algebraic_KernelIdeal_ReferenceIdeal := by
  intro m ρ m' ρ' _ hagree
  refine ⟨fun c => Cert.Lora.lora (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Fold.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
